-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_v19_1)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_v19_1) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v19_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S3200000 : Shape := ⟨1, ![3200000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : FVec F S100000x16 .f32) (main_arg1 : IVec S3200000 32) (main_arg2 : IVec S3200000 32) (main_arg3 : FVec F S3200000 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  main_v8
-- ==== Kernel.lean ====
abbrev S100000x16 : Shape := ⟨2, ![100000, 16]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S4000x16 : Shape := ⟨2, ![4000, 16]⟩
abbrev S4000x1 : Shape := ⟨2, ![4000, 1]⟩
abbrev S2000x16 : Shape := ⟨2, ![2000, 16]⟩

abbrev nBuf : Space → Nat
  | .hbm => 31
  | .vmem => 18
  | .smem => 0
  | _ => 0

abbrev bufTy : (tb : Table) → Fin (tcTables nBuf tb) → BufTy
  | .hbm, ⟨0, _⟩ => ⟨S100000x16, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S_, .i32⟩
  | .hbm, ⟨5, _⟩ => ⟨S3200000, .i32⟩
  | .hbm, ⟨6, _⟩ => ⟨S3200000, .i1⟩
  | .hbm, ⟨7, _⟩ => ⟨S_, .i32⟩
  | .hbm, ⟨8, _⟩ => ⟨S3200000, .i32⟩
  | .hbm, ⟨9, _⟩ => ⟨S3200000, .i32⟩
  | .hbm, ⟨10, _⟩ => ⟨S3200000, .i32⟩
  | .hbm, ⟨11, _⟩ => ⟨S3200000x1, .i32⟩
  | .hbm, ⟨12, _⟩ => ⟨S3200000x16, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x16, .f32⟩
  | .hbm, ⟨22, _⟩ => ⟨S3200000x1, .f32⟩
  | .hbm, ⟨23, _⟩ => ⟨S3200000x16, .f32⟩
  | .hbm, ⟨24, _⟩ => ⟨S_, .f32⟩
  | .hbm, ⟨25, _⟩ => ⟨S100000x16, .f32⟩
  | .hbm, ⟨26, _⟩ => ⟨S3200000x1, .i32⟩
  | .hbm, ⟨27, _⟩ => ⟨S100000x16, .f32⟩
  | .hbm, ⟨28, _⟩ => ⟨S100000x16, .f32⟩
  | .hbm, ⟨29, _⟩ => ⟨S100000x16, .f32⟩
  | .hbm, ⟨30, _⟩ => ⟨S100000x16, .f32⟩
  | .local _ .vmem, ⟨0, _⟩ => ⟨S4000x16, .f32⟩
  | .local _ .vmem, ⟨1, _⟩ => ⟨S4000x16, .f32⟩
  | .local _ .vmem, ⟨2, _⟩ => ⟨S4000x16, .f32⟩
  | .local _ .vmem, ⟨3, _⟩ => ⟨S4000x16, .f32⟩
  | .local _ .vmem, ⟨4, _⟩ => ⟨S4000x1, .f32⟩
  | .local _ .vmem, ⟨5, _⟩ => ⟨S4000x1, .f32⟩
  | .local _ .vmem, ⟨6, _⟩ => ⟨S4000x16, .f32⟩
  | .local _ .vmem, ⟨7, _⟩ => ⟨S4000x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S2000x16, .f32⟩
  | .local _ .vmem, ⟨14, _⟩ => ⟨S2000x16, .f32⟩
  | .local _ .vmem, ⟨15, _⟩ => ⟨S2000x16, .f32⟩
  | .local _ .vmem, ⟨16, _⟩ => ⟨S2000x16, .f32⟩
  | .local _ .vmem, ⟨17, _⟩ => ⟨S2000x16, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  bcast_S_S100000x16 : S_.BroadcastsInDim S100000x16 (![] : Fin 0 → Fin S100000x16.rank)
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S3200000x16.size a
  hwx0_0 : ∀ i : grid0.Coords, EltTy.bits .f32 = 32 ∨ (Rect.block (s := S3200000x16) S4000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x16.size a ≤ S3200000x16.size a
  hwx0_1 : ∀ i : grid0.Coords, EltTy.bits .f32 = 32 ∨ (Rect.block (s := S3200000x16) S4000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S3200000x1.size a
  hwx0_2 : ∀ i : grid0.Coords, EltTy.bits .f32 = 32 ∨ (Rect.block (s := S3200000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S3200000x16.size a
  hwx0_3 : ∀ i : grid0.Coords, EltTy.bits .f32 = 32 ∨ (Rect.block (s := S3200000x16) S4000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S100000x16.size a
  hwx1_1 : ∀ i : grid1.Coords, EltTy.bits .f32 = 32 ∨ (Rect.block (s := S100000x16) S2000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x16.size a ≤ S100000x16.size a
  hwx1_3 : ∀ i : grid1.Coords, EltTy.bits .f32 = 32 ∨ (Rect.block (s := S100000x16) S2000x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x16.size a ≤ S100000x16.size a
  hwx1_4 : ∀ i : grid1.Coords, EltTy.bits .f32 = 32 ∨ (Rect.block (s := S100000x16) S2000x16.size (cc1_transform_4 i) (hinb1_4 i)).WholeWords (EltTy.packing .f32)

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_v6) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19_0) S2000x16.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19_1) S2000x16.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_2) S2000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x16 : Shape := ⟨2, ![100000, 16]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩

abbrev nBuf : Space → Nat
  | .hbm => 34
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S100000x16, .f32⟩
  | .hbm, ⟨5, _⟩ => ⟨S_, .i32⟩
  | .hbm, ⟨6, _⟩ => ⟨S3200000, .i32⟩
  | .hbm, ⟨7, _⟩ => ⟨S3200000, .i1⟩
  | .hbm, ⟨8, _⟩ => ⟨S_, .i32⟩
  | .hbm, ⟨9, _⟩ => ⟨S3200000, .i32⟩
  | .hbm, ⟨10, _⟩ => ⟨S3200000, .i32⟩
  | .hbm, ⟨11, _⟩ => ⟨S3200000, .i32⟩
  | .hbm, ⟨12, _⟩ => ⟨S3200000x1, .i32⟩
  | .hbm, ⟨13, _⟩ => ⟨S3200000x16, .f32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x16, .f32⟩
  | .hbm, ⟨23, _⟩ => ⟨S3200000x16, .f32⟩
  | .hbm, ⟨24, _⟩ => ⟨S3200000x16, .f32⟩
  | .hbm, ⟨25, _⟩ => ⟨S3200000x1, .f32⟩
  | .hbm, ⟨26, _⟩ => ⟨S3200000x16, .f32⟩
  | .hbm, ⟨27, _⟩ => ⟨S3200000x16, .f32⟩
  | .hbm, ⟨28, _⟩ => ⟨S_, .f32⟩
  | .hbm, ⟨29, _⟩ => ⟨S100000x16, .f32⟩
  | .hbm, ⟨30, _⟩ => ⟨S3200000x1, .i32⟩
  | .hbm, ⟨31, _⟩ => ⟨S100000x16, .f32⟩
  | .hbm, ⟨32, _⟩ => ⟨S100000x16, .f32⟩
  | .hbm, ⟨33, _⟩ => ⟨S100000x16, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.KernelRun.lean ====
/-
  The idealized kernel's run with its result arrays named.

  @main is two host stretches and two kernel regions in order: the gathers and the weight column, then the
  message region over 800 blocks of 4000 edges, then the scatter-add into the nodes, then the node region over
  50 blocks of 2000 nodes. Reading the final state at every buffer the host keeps gives, for each of the five
  results and the four arguments, the contents the last boundary of that sequence holds there: a fold through
  the program from the launch memory, in which a host stretch applies its operations and a region replaces
  each of its output arrays by what its write-backs leave.
-/
import proofs.«182047_j33243046871050_2_alg».proof.Proof.Gen.KernelIdeal.Frame

set_option maxRecDepth 16384

noncomputable section

namespace Cert.KernelIdeal.Arrays

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final state each result array
    holds what the last boundary of the program's fold holds there, the arguments what they were launched with. -/
theorem run_at_last_boundary : θ_run defs (onTc (τ := τ) (main (F := F))) ⟨m, fun _ => 0, ρ⟩ (fun r => ∀ c : Dev nD,
      r.2.mem ((c.tc : Thread nD τ).loc main_v19_0) = W4 m ρ c (Proc.devRef .tc main_v19_0)
      ∧ r.2.mem ((c.tc : Thread nD τ).loc main_v19_1) = W4 m ρ c (Proc.devRef .tc main_v19_1)
      ∧ r.2.mem ((c.tc : Thread nD τ).loc main_v18) = W4 m ρ c (Proc.devRef .tc main_v18)
      ∧ r.2.mem ((c.tc : Thread nD τ).loc main_v19_2) = W4 m ρ c (Proc.devRef .tc main_v19_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v19_0 (by decide)),
       h c _ (mem_uc main_v19_1 (by decide)),
       h c _ (mem_uc main_v18 (by decide)),
       h c _ (mem_uc main_v19_2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Arrays

end
-- ==== Proof.MessageRegion.lean ====
/-
  The message region: what its output array holds when the region is left.

  The region walks 800 grid points; point t works on edges 4000 t … 4000 t + 3999. Its body reads the point's
  [4000, 16] blocks of the two gathered endpoint arrays x₁, x₂ and the point's [4000, 1] block of the weight
  column w, and stores sin (x₁ − x₂) · w, the weight repeated along the 16 lanes, over the whole output block. Every
  window moves with the point by the same map (block t of the rows, the one block of the lanes), so the
  value written at edge e and lane d is sin (x₁[e, d] − x₂[e, d]) · w[e, 0]: one function of the arrays as the
  region finds them. The 800 output blocks tile the [3200000, 16] array — row e lies in block e / 4000 — hence the
  array ends holding that function everywhere.
-/
import proofs.«182047_j33243046871050_2_alg».proof.Proof.Gen.KernelIdeal.Frame
import Idealize.ShloMosaic.Lib.Pipeline.Value

set_option maxRecDepth 16384

noncomputable section

namespace Cert.KernelIdeal.Messages

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's loads and its store start at row 0, lane 0 of their staging buffers. -/
theorem zero_offsets : (![0, 0] : Fin 2 → Nat) = fun _ => 0 := funext fun a => by fin_cases a <;> rfl

/-- The entry of the weight column that edge `i 0` reads, whatever the lane `i 1`: row `i 0`, column 0. -/
def weightEntry (i : S3200000x16.Idx) : S3200000x1.Idx := fun a => match a with
  | ⟨0, _⟩ => ⟨(i 0).val, (i 0).isLt⟩
  | ⟨1, _⟩ => ⟨0, Nat.one_pos⟩

/-- The message array of endpoint arrays `x1`, `x2` and a weight column `w`: at edge `e` and lane `d`,
    `sin (x1[e, d] − x2[e, d]) · w[e, 0]`. -/
def message (x1 x2 : S3200000x16.Idx → Elt F .f32) (w : S3200000x1.Idx → Elt F .f32) : S3200000x16.Idx → Elt F .f32 :=
  fun i => FloatOps.mulf (FloatOps.sin (FloatOps.subf (x1 i) (x2 i))) (w (weightEntry i))

/-- What one point stores at row `j 0`, lane `j 1` of its block: the sine of the difference of the two loaded
    blocks there, times the loaded weight block at the row's one entry `k` (the lane broadcast reads column 0). -/
theorem stored_apply (x0 x1 : Vec F S4000x16 .f32) (x2 : Vec F S4000x1 .f32) (j : S4000x16.Idx) (k : S4000x1.Idx)
    (hk0 : (k 0).val = (j 0).val) (hk1 : (k 1).val = 0) :
    k0_pay1 x0 x1 x2 j = FloatOps.mulf (FloatOps.sin (FloatOps.subf (x0 j) (x1 j))) (x2 k) := by
  unfold k0_pay1
  simp only [shapeCast_self]
  show FloatOps.mulf (FloatOps.sin (FloatOps.subf (x0 j) (x1 j))) (broadcastTo S4000x16 x2 broadcasts_S4000x1_S4000x16 j) = _
  refine congrArg _ (broadcastTo_apply x2 broadcasts_S4000x1_S4000x16 j k fun a => ?_)
  match a with
  | ⟨0, _⟩ =>
    show (k 0).val = if (4000 : Nat) = 1 then 0 else (j 0).val
    rw [if_neg (by decide)]; exact hk0
  | ⟨1, _⟩ =>
    show (k 1).val = if (1 : Nat) = 1 then 0 else (j 1).val
    rw [if_pos rfl]; exact hk1

/-- The printed index maps, decided over the 800 points: every window's block at point `t` is block `t` along the
    edges and the one block along the lanes. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the message array of the arrays as the region finds them. -/
theorem flushed_message (c : Dev nD) (t : Fin cfg0.N) :
    (dat0 V c).flushed 3 t
      = ((cfg0.win 3).blk t).view.read (Elt F) (message (V c main_v6) (V c main_v13) (V c main_v14)) := by
  show (cfg0.win 3).cut (grid0.coords t) ((dat0 V c).after 3 t) = _
  rw [after0_3]
  unfold out0_3
  rw [View.canon_unit_zero zero_offsets]
  simp only [View.ld_unit_zero (S := S4000x16) zero_offsets, View.ld_unit_zero (S := S4000x1) zero_offsets]
  obtain ⟨e00, e01, e10, e11, e20, e21, e30, e31⟩ := index_maps t
  funext j
  let k : S4000x1.Idx := fun a => match a with
    | ⟨0, _⟩ => ⟨(j 0).val, (j 0).isLt⟩
    | ⟨1, _⟩ => ⟨0, Nat.one_pos⟩
  refine (stored_apply (iblk0 V c 0 t) (iblk0 V c 1 t) (iblk0 V c 2 t) j k rfl rfl).trans ?_
  show FloatOps.mulf (FloatOps.sin (FloatOps.subf (V c main_v6 (((cfg0.win 0).blk t).view.emb j)) (V c main_v13 (((cfg0.win 1).blk t).view.emb j))))
        (V c main_v14 (((cfg0.win 2).blk t).view.emb k))
      = FloatOps.mulf (FloatOps.sin (FloatOps.subf (V c main_v6 (((cfg0.win 3).blk t).view.emb j)) (V c main_v13 (((cfg0.win 3).blk t).view.emb j))))
        (V c main_v14 (weightEntry (((cfg0.win 3).blk t).view.emb j)))
  have h0 : ((cfg0.win 0).blk t).view.emb j = ((cfg0.win 3).blk t).view.emb j := by
    funext a; apply Fin.ext
    match a with
    | ⟨0, _⟩ => show win0_0.index t (0 : Fin 2) * 4000 + 1 * (j 0).val = win0_3.index t (0 : Fin 2) * 4000 + 1 * (j 0).val; omega
    | ⟨1, _⟩ => show win0_0.index t (1 : Fin 2) * 16 + 1 * (j 1).val = win0_3.index t (1 : Fin 2) * 16 + 1 * (j 1).val; omega
  have h1 : ((cfg0.win 1).blk t).view.emb j = ((cfg0.win 3).blk t).view.emb j := by
    funext a; apply Fin.ext
    match a with
    | ⟨0, _⟩ => show win0_1.index t (0 : Fin 2) * 4000 + 1 * (j 0).val = win0_3.index t (0 : Fin 2) * 4000 + 1 * (j 0).val; omega
    | ⟨1, _⟩ => show win0_1.index t (1 : Fin 2) * 16 + 1 * (j 1).val = win0_3.index t (1 : Fin 2) * 16 + 1 * (j 1).val; omega
  have h2 : ((cfg0.win 2).blk t).view.emb k = weightEntry (((cfg0.win 3).blk t).view.emb j) := by
    funext a; apply Fin.ext
    match a with
    | ⟨0, _⟩ => show win0_2.index t (0 : Fin 2) * 4000 + 1 * (j 0).val = win0_3.index t (0 : Fin 2) * 4000 + 1 * (j 0).val; omega
    | ⟨1, _⟩ => show win0_2.index t (1 : Fin 2) * 1 + 1 * 0 = 0; omega
  rw [h0, h1, h2]

/-- An index of the message array is in point `t`'s output block iff each coordinate is in the block's range. -/
theorem mem_block (t : Fin cfg0.N) (i : S3200000x16.Idx) :
    i ∈ ((cfg0.win 3).blk t).view.set
      ↔ ∀ a : Fin 2, win0_3.index t a * S4000x16.size a ≤ (i a).val ∧ (i a).val < win0_3.index t a * S4000x16.size a + S4000x16.size a := by
  show i ∈ ((View.whole main_v15).slice (win0_3.rect t)).set ↔ _
  rw [View.set_slice_whole, Rect.mem_set_unit]
  exact Iff.rfl

/-- The output blocks tile the array: edge row `e` lies in the block of point `e / 4000`. -/
theorem covered (i : S3200000x16.Idx) :
    ∃ t : Fin cfg0.N, (cfg0.win 3).flush t = true ∧ i ∈ ((cfg0.win 3).blk t).view.set := by
  have hN : cfg0.N = 800 := N_0
  have hi0 : (i 0).val < 3200000 := (i 0).isLt
  have hi1 : (i 1).val < 16 := (i 1).isLt
  have ht : (i 0).val / 4000 < cfg0.N := by rw [hN]; omega
  obtain ⟨-, -, -, -, -, -, e30, e31⟩ := index_maps ⟨(i 0).val / 4000, ht⟩
  refine ⟨⟨(i 0).val / 4000, ht⟩, flush0_3 _, ?_⟩
  rw [mem_block]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win0_3.index ⟨(i 0).val / 4000, ht⟩ (1 : Fin 2) * 16 ≤ (i 1).val
      ∧ (i 1).val < win0_3.index ⟨(i 0).val / 4000, ht⟩ (1 : Fin 2) * 16 + 16
    rw [e31]; omega

/-- The array the region leaves: the message array of the endpoint arrays and the weight column it was entered with. -/
theorem message_array (c : Dev nD) :
    (dat0 V c).arrAt 3 cfg0.N = message (V c main_v6) (V c main_v13) (V c main_v14) :=
  (dat0 V c).arrAt_eq_of_cover 3 (message (V c main_v6) (V c main_v13) (V c main_v14))
    (fun t _ => flushed_message V c t) (fun i => covered i)

end Cert.KernelIdeal.Messages

end
-- ==== Proof.NodeRegion.lean ====
/-
  The node region: what its three output arrays hold when the region is left.

  The region walks 50 grid points; point t works on nodes 2000 t … 2000 t + 1999. Its body reads the point's
  [2000, 16] blocks of the node states x and of the aggregated messages a, and stores over whole output blocks
  0 − x (the self term), tanh a (the interaction term) and their sum (0 − x) + tanh a. All five windows move with the
  point by the same map, so what is written at node n and lane d is that expression of x[n, d] and a[n, d]: one
  function of the arrays as the region finds them per output. Each output's 50 blocks tile its [100000, 16]
  array — row n lies in block n / 2000 — hence each array ends holding its function everywhere.
-/
import proofs.«182047_j33243046871050_2_alg».proof.Proof.Gen.KernelIdeal.Frame
import Idealize.ShloMosaic.Lib.Pipeline.Value

set_option maxRecDepth 16384

noncomputable section

namespace Cert.KernelIdeal.Nodes

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's loads and its stores start at row 0, lane 0 of their staging buffers. -/
theorem zero_offsets : (![0, 0] : Fin 2 → Nat) = fun _ => 0 := funext fun a => by fin_cases a <;> rfl

/-- The self term of node states `x`: `0 − x` entry by entry (the kernel's spelling of the negation). -/
def selfTerm (x : S100000x16.Idx → Elt F .f32) : S100000x16.Idx → Elt F .f32 :=
  fun i => FloatOps.subf (Scalar.ofBits .f32 0x00000000#32) (x i)

/-- The interaction term of aggregated messages `a`: `tanh a` entry by entry. -/
def interaction (a : S100000x16.Idx → Elt F .f32) : S100000x16.Idx → Elt F .f32 :=
  fun i => FloatOps.tanh (a i)

/-- The new state: the self term plus the interaction term. -/
def update (x a : S100000x16.Idx → Elt F .f32) : S100000x16.Idx → Elt F .f32 :=
  fun i => FloatOps.addf (selfTerm x i) (interaction a i)

/-- What one point stores at an entry of its blocks, from the loaded blocks at that entry. -/
theorem self_stored_apply (x0 : Vec F S2000x16 .f32) (j : S2000x16.Idx) :
    k1_pay1 x0 j = FloatOps.subf (Scalar.ofBits .f32 0x00000000#32) (x0 j) := rfl
theorem interaction_stored_apply (x1 : Vec F S2000x16 .f32) (j : S2000x16.Idx) :
    k1_pay2 x1 j = FloatOps.tanh (x1 j) := by
  unfold k1_pay2
  simp only [shapeCast_self]
  rfl
theorem update_stored_apply (x0 x1 : Vec F S2000x16 .f32) (j : S2000x16.Idx) :
    k1_pay3 x0 x1 j = FloatOps.addf (FloatOps.subf (Scalar.ofBits .f32 0x00000000#32) (x0 j)) (FloatOps.tanh (x1 j)) := by
  unfold k1_pay3
  show FloatOps.addf (k1_pay1 x0 j) (k1_pay2 x1 j) = _
  rw [self_stored_apply, interaction_stored_apply]

/-- The printed index maps, decided over the 50 points: every window's block at point `t` is block `t` along the
    nodes and the one block along the lanes. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point `t` writes back through output window 2 is block `t` of `update` of the arrays as the region finds them. -/
theorem flushed_update (c : Dev nD) (t : Fin cfg1.N) :
    (dat1 V c).flushed 2 t
      = ((cfg1.win 2).blk t).view.read (Elt F) (update (V c main_arg0) (V c main_v18)) := by
  show (cfg1.win 2).cut (grid1.coords t) ((dat1 V c).after 2 t) = _
  rw [after1_2]
  unfold out1_2
  rw [View.canon_unit_zero zero_offsets]
  simp only [View.ld_unit_zero (S := S2000x16) zero_offsets]
  obtain ⟨e00, e01, e10, e11, e20, e21, e30, e31, e40, e41⟩ := index_maps t
  funext j
  refine (update_stored_apply (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb j = ((cfg1.win 2).blk t).view.emb j := by
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 16 + 1 * (j 1).val = win1_2.index t (1 : Fin 2) * 16 + 1 * (j 1).val; omega
  show FloatOps.addf (FloatOps.subf (Scalar.ofBits .f32 0x00000000#32) (V c main_arg0 (((cfg1.win 0).blk t).view.emb j))) (FloatOps.tanh (V c main_v18 (((cfg1.win 1).blk t).view.emb j)))
      = FloatOps.addf (FloatOps.subf (Scalar.ofBits .f32 0x00000000#32) (V c main_arg0 (((cfg1.win 2).blk t).view.emb j))) (FloatOps.tanh (V c main_v18 (((cfg1.win 2).blk t).view.emb j)))
  rw [h0, h1]

/-- What point `t` writes back through output window 3 is block `t` of `selfTerm` of the arrays as the region finds them. -/
theorem flushed_selfTerm (c : Dev nD) (t : Fin cfg1.N) :
    (dat1 V c).flushed 3 t
      = ((cfg1.win 3).blk t).view.read (Elt F) (selfTerm (V c main_arg0)) := by
  show (cfg1.win 3).cut (grid1.coords t) ((dat1 V c).after 3 t) = _
  rw [after1_3]
  unfold out1_3
  rw [View.canon_unit_zero zero_offsets]
  simp only [View.ld_unit_zero (S := S2000x16) zero_offsets]
  obtain ⟨e00, e01, e10, e11, e20, e21, e30, e31, e40, e41⟩ := index_maps t
  funext j
  refine (self_stored_apply (iblk1 V c 0 t) j).trans ?_
  have h0 : ((cfg1.win 0).blk t).view.emb j = ((cfg1.win 3).blk t).view.emb j := by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 16 + 1 * (j 1).val = win1_3.index t (1 : Fin 2) * 16 + 1 * (j 1).val; omega
  have h1 : ((cfg1.win 1).blk t).view.emb j = ((cfg1.win 3).blk t).view.emb j := by
    funext a; apply Fin.ext
    match a with
    | ⟨0, _⟩ => show win1_1.index t (0 : Fin 2) * 2000 + 1 * (j 0).val = win1_3.index t (0 : Fin 2) * 2000 + 1 * (j 0).val; omega
    | ⟨1, _⟩ => show win1_1.index t (1 : Fin 2) * 16 + 1 * (j 1).val = win1_3.index t (1 : Fin 2) * 16 + 1 * (j 1).val; omega
  show FloatOps.subf (Scalar.ofBits .f32 0x00000000#32) (V c main_arg0 (((cfg1.win 0).blk t).view.emb j))
      = FloatOps.subf (Scalar.ofBits .f32 0x00000000#32) (V c main_arg0 (((cfg1.win 3).blk t).view.emb j))
  rw [h0]

/-- What point `t` writes back through output window 4 is block `t` of `interaction` of the arrays as the region finds them. -/
theorem flushed_interaction (c : Dev nD) (t : Fin cfg1.N) :
    (dat1 V c).flushed 4 t
      = ((cfg1.win 4).blk t).view.read (Elt F) (interaction (V c main_v18)) := by
  show (cfg1.win 4).cut (grid1.coords t) ((dat1 V c).after 4 t) = _
  rw [after1_4]
  unfold out1_4
  rw [View.canon_unit_zero zero_offsets]
  simp only [View.ld_unit_zero (S := S2000x16) zero_offsets]
  obtain ⟨e00, e01, e10, e11, e20, e21, e30, e31, e40, e41⟩ := index_maps t
  funext j
  refine (interaction_stored_apply (iblk1 V c 1 t) j).trans ?_
  have h0 : ((cfg1.win 0).blk t).view.emb j = ((cfg1.win 4).blk t).view.emb j := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 16 + 1 * (j 1).val = win1_4.index t (1 : Fin 2) * 16 + 1 * (j 1).val; omega
  have h1 : ((cfg1.win 1).blk t).view.emb j = ((cfg1.win 4).blk t).view.emb j := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 16 + 1 * (j 1).val = win1_4.index t (1 : Fin 2) * 16 + 1 * (j 1).val; omega
  show FloatOps.tanh (V c main_v18 (((cfg1.win 1).blk t).view.emb j))
      = FloatOps.tanh (V c main_v18 (((cfg1.win 4).blk t).view.emb j))
  rw [h1]

/-- An index of the array of output window 2 is in point `t`'s block iff each coordinate is in the block's range. -/
theorem mem_block2 (t : Fin cfg1.N) (i : S100000x16.Idx) :
    i ∈ ((cfg1.win 2).blk t).view.set
      ↔ ∀ a : Fin 2, win1_2.index t a * S2000x16.size a ≤ (i a).val ∧ (i a).val < win1_2.index t a * S2000x16.size a + S2000x16.size a := by
  show i ∈ ((View.whole main_v19_0).slice (win1_2.rect t)).set ↔ _
  rw [View.set_slice_whole, Rect.mem_set_unit]
  exact Iff.rfl

/-- The blocks of output window 2 tile its array: node row `n` lies in the block of point `n / 2000`. -/
theorem covered2 (i : S100000x16.Idx) :
    ∃ t : Fin cfg1.N, (cfg1.win 2).flush t = true ∧ i ∈ ((cfg1.win 2).blk t).view.set := by
  have hN : cfg1.N = 50 := N_1
  have hi0 : (i 0).val < 100000 := (i 0).isLt
  have hi1 : (i 1).val < 16 := (i 1).isLt
  have ht : (i 0).val / 2000 < cfg1.N := by rw [hN]; omega
  obtain ⟨e00, e01, e10, e11, e20, e21, e30, e31, e40, e41⟩ := index_maps ⟨(i 0).val / 2000, ht⟩
  refine ⟨⟨(i 0).val / 2000, ht⟩, flush1_2 _, ?_⟩
  rw [mem_block2]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win1_2.index ⟨(i 0).val / 2000, ht⟩ (1 : Fin 2) * 16 ≤ (i 1).val
      ∧ (i 1).val < win1_2.index ⟨(i 0).val / 2000, ht⟩ (1 : Fin 2) * 16 + 16
    rw [e21]; omega

/-- The array output window 2 leaves. -/
theorem update_array (c : Dev nD) :
    (dat1 V c).arrAt 2 cfg1.N = update (V c main_arg0) (V c main_v18) :=
  (dat1 V c).arrAt_eq_of_cover 2 (update (V c main_arg0) (V c main_v18))
    (fun t _ => flushed_update V c t) (fun i => covered2 i)

/-- An index of the array of output window 3 is in point `t`'s block iff each coordinate is in the block's range. -/
theorem mem_block3 (t : Fin cfg1.N) (i : S100000x16.Idx) :
    i ∈ ((cfg1.win 3).blk t).view.set
      ↔ ∀ a : Fin 2, win1_3.index t a * S2000x16.size a ≤ (i a).val ∧ (i a).val < win1_3.index t a * S2000x16.size a + S2000x16.size a := by
  show i ∈ ((View.whole main_v19_1).slice (win1_3.rect t)).set ↔ _
  rw [View.set_slice_whole, Rect.mem_set_unit]
  exact Iff.rfl

/-- The blocks of output window 3 tile its array: node row `n` lies in the block of point `n / 2000`. -/
theorem covered3 (i : S100000x16.Idx) :
    ∃ t : Fin cfg1.N, (cfg1.win 3).flush t = true ∧ i ∈ ((cfg1.win 3).blk t).view.set := by
  have hN : cfg1.N = 50 := N_1
  have hi0 : (i 0).val < 100000 := (i 0).isLt
  have hi1 : (i 1).val < 16 := (i 1).isLt
  have ht : (i 0).val / 2000 < cfg1.N := by rw [hN]; omega
  obtain ⟨e00, e01, e10, e11, e20, e21, e30, e31, e40, e41⟩ := index_maps ⟨(i 0).val / 2000, ht⟩
  refine ⟨⟨(i 0).val / 2000, ht⟩, flush1_3 _, ?_⟩
  rw [mem_block3]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win1_3.index ⟨(i 0).val / 2000, ht⟩ (1 : Fin 2) * 16 ≤ (i 1).val
      ∧ (i 1).val < win1_3.index ⟨(i 0).val / 2000, ht⟩ (1 : Fin 2) * 16 + 16
    rw [e31]; omega

/-- The array output window 3 leaves. -/
theorem selfTerm_array (c : Dev nD) :
    (dat1 V c).arrAt 3 cfg1.N = selfTerm (V c main_arg0) :=
  (dat1 V c).arrAt_eq_of_cover 3 (selfTerm (V c main_arg0))
    (fun t _ => flushed_selfTerm V c t) (fun i => covered3 i)

/-- An index of the array of output window 4 is in point `t`'s block iff each coordinate is in the block's range. -/
theorem mem_block4 (t : Fin cfg1.N) (i : S100000x16.Idx) :
    i ∈ ((cfg1.win 4).blk t).view.set
      ↔ ∀ a : Fin 2, win1_4.index t a * S2000x16.size a ≤ (i a).val ∧ (i a).val < win1_4.index t a * S2000x16.size a + S2000x16.size a := by
  show i ∈ ((View.whole main_v19_2).slice (win1_4.rect t)).set ↔ _
  rw [View.set_slice_whole, Rect.mem_set_unit]
  exact Iff.rfl

/-- The blocks of output window 4 tile its array: node row `n` lies in the block of point `n / 2000`. -/
theorem covered4 (i : S100000x16.Idx) :
    ∃ t : Fin cfg1.N, (cfg1.win 4).flush t = true ∧ i ∈ ((cfg1.win 4).blk t).view.set := by
  have hN : cfg1.N = 50 := N_1
  have hi0 : (i 0).val < 100000 := (i 0).isLt
  have hi1 : (i 1).val < 16 := (i 1).isLt
  have ht : (i 0).val / 2000 < cfg1.N := by rw [hN]; omega
  obtain ⟨e00, e01, e10, e11, e20, e21, e30, e31, e40, e41⟩ := index_maps ⟨(i 0).val / 2000, ht⟩
  refine ⟨⟨(i 0).val / 2000, ht⟩, flush1_4 _, ?_⟩
  rw [mem_block4]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win1_4.index ⟨(i 0).val / 2000, ht⟩ (1 : Fin 2) * 16 ≤ (i 1).val
      ∧ (i 1).val < win1_4.index ⟨(i 0).val / 2000, ht⟩ (1 : Fin 2) * 16 + 16
    rw [e41]; omega

/-- The array output window 4 leaves. -/
theorem interaction_array (c : Dev nD) :
    (dat1 V c).arrAt 4 cfg1.N = interaction (V c main_v18) :=
  (dat1 V c).arrAt_eq_of_cover 4 (interaction (V c main_v18))
    (fun t _ => flushed_interaction V c t) (fun i => covered4 i)

end Cert.KernelIdeal.Nodes

end
-- ==== Proof.KernelValues.lean ====
/-
  The idealized kernel's five results as functions of its four arguments.

  Following the program from the launch memory: the first host stretch turns negative edge endpoints into
  indices from the end (i < 0 ↦ i + 100000), gathers the state rows x[row], x[col] and casts the weights to a
  column; the message region leaves sin (x[row] − x[col]) · w on every edge (MessageRegion); the second stretch
  adds each edge's message into the row of its destination node, starting from zeros; the node region leaves
  0 − x, tanh of the aggregated messages, and their sum (NodeRegion). No host operation and no region writes an
  argument, so each is read back unchanged wherever it is used. The gather and the scatter-add are kept as the
  host operations they are: nothing about them is needed beyond their being applied to these operands.
-/
import proofs.«182047_j33243046871050_2_alg».proof.Proof.KernelRun
import proofs.«182047_j33243046871050_2_alg».proof.Proof.MessageRegion
import proofs.«182047_j33243046871050_2_alg».proof.Proof.NodeRegion
import Idealize.ShloMosaic.Lib.StableHlo.Run

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-! ## The host operations' terms -/

/-- An endpoint array with its negative entries counted from the end: `i < 0 ↦ i + 100000`. -/
def fromEnd (a : (⟨S3200000, .i32⟩ : BufTy).Contents (Elt F)) : (⟨S3200000, .i32⟩ : BufTy).Contents (Elt F) :=
  select (cmpi .slt a (broadcastInDim S3200000 ![] bcast_S_S3200000 (constantI S_ 32 0#32)))
    (addi a (broadcastInDim S3200000 ![] bcast_S_S3200000 (constantI S_ 32 100000#32))) a

/-- The state rows at the edges' endpoints `a`: row `e` is `x[a[e]]`. -/
def endpointRows (x : (⟨S100000x16, .f32⟩ : BufTy).Contents (Elt F)) (a : (⟨S3200000, .i32⟩ : BufTy).Contents (Elt F)) :
    (⟨S3200000x16, .f32⟩ : BufTy).Contents (Elt F) :=
  Host.gather gather_S100000x16_S3200000x1_S3200000x16_1_0_n_n_0_1_116 x
    (broadcastInDim S3200000x1 ![0] bcast_S3200000_S3200000x1_0 (fromEnd (F := F) a))

/-- The edge weights as a column. -/
def weightColumn (w : (⟨S3200000, .f32⟩ : BufTy).Contents (Elt F)) : (⟨S3200000x1, .f32⟩ : BufTy).Contents (Elt F) :=
  broadcastInDim S3200000x1 ![0] bcast_S3200000_S3200000x1_0 w

/-- Edge messages `u` added into the rows of their destination nodes `col`, from zeros. -/
def aggregate (col : (⟨S3200000, .i32⟩ : BufTy).Contents (Elt F)) (u : (⟨S3200000x16, .f32⟩ : BufTy).Contents (Elt F)) :
    (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 col) u

/-- The aggregated messages of a state `x`, endpoints `row`, `col` and weights `w`. -/
def aggregated (x : (⟨S100000x16, .f32⟩ : BufTy).Contents (Elt F)) (row col : (⟨S3200000, .i32⟩ : BufTy).Contents (Elt F))
    (w : (⟨S3200000, .f32⟩ : BufTy).Contents (Elt F)) : (⟨S100000x16, .f32⟩ : BufTy).Contents (Elt F) :=
  aggregate (F := F) col (Messages.message (endpointRows (F := F) x row) (endpointRows (F := F) x col) (weightColumn (F := F) w))

variable (m : (ℓ : Loc nD τ sig) → Buf (Elt F) ℓ) (ρ : Dev nD → PrngReg)

/-! ## The first host stretch: what the message region is entered with -/

theorem entry_rows_row (c : Dev nD) :
    V1 m ρ c main_v6 = endpointRows (F := F) (m ((c.tc : Thread nD τ).loc main_arg0)) (m ((c.tc : Thread nD τ).loc main_arg1)) := by
  show StableHlo.after hostOps0 (W0 m ρ c) (Proc.devRef .tc main_v6) = _
  after_results <;> rfl

theorem entry_rows_col (c : Dev nD) :
    V1 m ρ c main_v13 = endpointRows (F := F) (m ((c.tc : Thread nD τ).loc main_arg0)) (m ((c.tc : Thread nD τ).loc main_arg2)) := by
  show StableHlo.after hostOps0 (W0 m ρ c) (Proc.devRef .tc main_v13) = _
  after_results <;> rfl

theorem entry_weights (c : Dev nD) :
    V1 m ρ c main_v14 = weightColumn (F := F) (m ((c.tc : Thread nD τ).loc main_arg3)) := by
  show StableHlo.after hostOps0 (W0 m ρ c) (Proc.devRef .tc main_v14) = _
  after_results <;> rfl

/-- The first stretch writes no argument. -/
theorem entry_col (c : Dev nD) : W1 m ρ c (Proc.devRef .tc main_arg2) = m ((c.tc : Thread nD τ).loc main_arg2) := by
  show StableHlo.after hostOps0 (W0 m ρ c) (Proc.devRef .tc main_arg2) = _
  after_results <;> rfl

theorem entry_state (c : Dev nD) : W1 m ρ c (Proc.devRef .tc main_arg0) = m ((c.tc : Thread nD τ).loc main_arg0) := by
  show StableHlo.after hostOps0 (W0 m ρ c) (Proc.devRef .tc main_arg0) = _
  after_results <;> rfl

/-! ## After the message region -/

theorem messages_left (c : Dev nD) :
    W2 m ρ c (Proc.devRef .tc main_v15)
      = Messages.message (endpointRows (F := F) (m ((c.tc : Thread nD τ).loc main_arg0)) (m ((c.tc : Thread nD τ).loc main_arg1)))
          (endpointRows (F := F) (m ((c.tc : Thread nD τ).loc main_arg0)) (m ((c.tc : Thread nD τ).loc main_arg2)))
          (weightColumn (F := F) (m ((c.tc : Thread nD τ).loc main_arg3))) := by
  refine (W2_arr m ρ c 3).trans ?_
  rw [Messages.message_array (V1 m ρ) c, entry_rows_row, entry_rows_col, entry_weights]

theorem col_kept (c : Dev nD) : W2 m ρ c (Proc.devRef .tc main_arg2) = m ((c.tc : Thread nD τ).loc main_arg2) :=
  (W2_of_ne m ρ c main_arg2 (by decide)).trans (entry_col m ρ c)

theorem state_kept (c : Dev nD) : W2 m ρ c (Proc.devRef .tc main_arg0) = m ((c.tc : Thread nD τ).loc main_arg0) :=
  (W2_of_ne m ρ c main_arg0 (by decide)).trans (entry_state m ρ c)

/-! ## The second host stretch: what the node region is entered with -/

theorem entry_aggregated (c : Dev nD) :
    V3 m ρ c main_v18 = aggregated (F := F) (m ((c.tc : Thread nD τ).loc main_arg0)) (m ((c.tc : Thread nD τ).loc main_arg1))
      (m ((c.tc : Thread nD τ).loc main_arg2)) (m ((c.tc : Thread nD τ).loc main_arg3)) := by
  have h : V3 m ρ c main_v18 = aggregate (F := F) (W2 m ρ c (Proc.devRef .tc main_arg2)) (W2 m ρ c (Proc.devRef .tc main_v15)) := by
    show StableHlo.after hostOps1 (W2 m ρ c) (Proc.devRef .tc main_v18) = _
    after_results <;> rfl
  rw [h, col_kept, messages_left]
  rfl

theorem entry_node_state (c : Dev nD) : V3 m ρ c main_arg0 = m ((c.tc : Thread nD τ).loc main_arg0) := by
  have h : V3 m ρ c main_arg0 = W2 m ρ c (Proc.devRef .tc main_arg0) := by
    show StableHlo.after hostOps1 (W2 m ρ c) (Proc.devRef .tc main_arg0) = _
    after_results <;> rfl
  rw [h, state_kept]

/-! ## After the node region -/

theorem update_left (c : Dev nD) :
    W4 m ρ c (Proc.devRef .tc main_v19_0)
      = Nodes.update (m ((c.tc : Thread nD τ).loc main_arg0)) (aggregated (F := F) (m ((c.tc : Thread nD τ).loc main_arg0)) (m ((c.tc : Thread nD τ).loc main_arg1))
          (m ((c.tc : Thread nD τ).loc main_arg2)) (m ((c.tc : Thread nD τ).loc main_arg3))) := by
  refine (W4_arr m ρ c 2).trans ?_
  rw [Nodes.update_array (V3 m ρ) c, entry_node_state, entry_aggregated]

theorem selfTerm_left (c : Dev nD) :
    W4 m ρ c (Proc.devRef .tc main_v19_1) = Nodes.selfTerm (m ((c.tc : Thread nD τ).loc main_arg0)) := by
  refine (W4_arr m ρ c 3).trans ?_
  rw [Nodes.selfTerm_array (V3 m ρ) c, entry_node_state]

theorem interaction_left (c : Dev nD) :
    W4 m ρ c (Proc.devRef .tc main_v19_2)
      = Nodes.interaction (aggregated (F := F) (m ((c.tc : Thread nD τ).loc main_arg0)) (m ((c.tc : Thread nD τ).loc main_arg1))
          (m ((c.tc : Thread nD τ).loc main_arg2)) (m ((c.tc : Thread nD τ).loc main_arg3))) := by
  refine (W4_arr m ρ c 4).trans ?_
  rw [Nodes.interaction_array (V3 m ρ) c, entry_aggregated]

/-- The aggregated messages are an input of the node region: it leaves them as it found them. -/
theorem aggregated_left (c : Dev nD) :
    W4 m ρ c (Proc.devRef .tc main_v18)
      = aggregated (F := F) (m ((c.tc : Thread nD τ).loc main_arg0)) (m ((c.tc : Thread nD τ).loc main_arg1))
          (m ((c.tc : Thread nD τ).loc main_arg2)) (m ((c.tc : Thread nD τ).loc main_arg3)) :=
  ((W4_arr m ρ c 1).trans (((dat1 (V3 m ρ) c).arrAt_in 1 rfl _).trans (A_eq1 (V3 m ρ) c 1))).trans (entry_aggregated m ρ c)

/-! ## The run -/

/-- Every weakly fair execution of the idealized kernel terminates, nothing faulting, with the five results at
    these functions of the arguments' launch contents and the arguments unchanged. -/
theorem run : θ_run defs (onTc (τ := τ) (main (F := F))) ⟨m, fun _ => 0, ρ⟩ (fun r => ∀ c : Dev nD,
      r.2.mem ((c.tc : Thread nD τ).loc main_v19_0)
        = Nodes.update (m ((c.tc : Thread nD τ).loc main_arg0)) (aggregated (F := F) (m ((c.tc : Thread nD τ).loc main_arg0)) (m ((c.tc : Thread nD τ).loc main_arg1))
            (m ((c.tc : Thread nD τ).loc main_arg2)) (m ((c.tc : Thread nD τ).loc main_arg3)))
      ∧ r.2.mem ((c.tc : Thread nD τ).loc main_v19_1) = Nodes.selfTerm (m ((c.tc : Thread nD τ).loc main_arg0))
      ∧ r.2.mem ((c.tc : Thread nD τ).loc main_v18)
        = aggregated (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v19_2)
        = Nodes.interaction (aggregated (F := F) (m ((c.tc : Thread nD τ).loc main_arg0)) (m ((c.tc : Thread nD τ).loc main_arg1))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c).1.trans (update_left m ρ c),
     (h c).2.1.trans (selfTerm_left m ρ c),
     (h c).2.2.1.trans (aggregated_left m ρ c),
     (h c).2.2.2.1.trans (interaction_left m ρ c),
     (h c).2.2.2.2⟩)
    (run_at_last_boundary m ρ)

end Cert.KernelIdeal.Arrays

end
-- ==== Proof.AgainstReference.lean ====
/-
  The kernel's functions of the arguments are the reference's, at the extended reals.

  Both programs normalise the endpoints, gather the endpoint rows, cast the weights to a column and scatter-add
  with the same host operations on the same operands, so those stages are the same terms. What differs is
  spelling inside the two kernel regions: the kernel's sine and hyperbolic tangent are the vector unit's and the
  reference's the host's — one function each on the extended reals; the kernel repeats a weight along the lanes by
  reading column 0 of the weight column where the reference broadcasts the column — the same entry; and the kernel
  negates by 0 − x where the reference negates — equal on every extended real, the infinities included
  (0 − ⊤ = ⊥ = −⊤, 0 − ⊥ = ⊤ = −⊥), so no finiteness of the inputs is used.
-/
import proofs.«182047_j33243046871050_2_alg».proof.Proof.KernelValues
import proofs.«182047_j33243046871050_2_alg».proof.Proof.Gen.ReferenceIdeal.Read
import Idealize.ShloMosaic.Lib.KernelVsHost
import Idealize.ShloMosaic.PureOps.Ideal

noncomputable section

namespace Cert.KernelIdeal.AgainstReference

open Cert.KernelIdeal Cert.KernelIdeal.Arrays Cert.ReferenceIdeal.Read
open Idealize.ShloMosaic Idealize.ShloMosaic.TcCoe Idealize.SL.Sem

variable (x : (⟨S100000x16, .f32⟩ : BufTy).Contents (Elt Ideal))
  (row col : (⟨S3200000, .i32⟩ : BufTy).Contents (Elt Ideal)) (w : (⟨S3200000, .f32⟩ : BufTy).Contents (Elt Ideal))

/-- The gathered endpoint rows and the weight column are the reference's stages: the same host operations. -/
theorem rows_row : endpointRows (F := Ideal) x row = val_main_v7 (F := Ideal) x row := rfl
theorem rows_col : endpointRows (F := Ideal) x col = val_main_v14 (F := Ideal) x col := rfl
theorem weights : weightColumn (F := Ideal) w = val_main_v17 (F := Ideal) w := rfl

/-- The message array is the reference's product stage: at edge `e`, lane `d` both are
    `sin (x[row e, d] − x[col e, d]) · w[e]`. -/
theorem message_eq :
    Messages.message (F := Ideal) (val_main_v7 (F := Ideal) x row) (val_main_v14 (F := Ideal) x col) (val_main_v17 (F := Ideal) w)
      = val_main_v19 (F := Ideal) x row col w := by
  funext i
  rw [val_main_v19_apply, val_main_v16_apply, val_main_v15_apply, val_main_v18_apply]
  unfold Messages.message
  simp only [Ideal.sin_def, Ideal.hostUnary_sin_def]
  rfl

/-- The aggregated messages are the reference's scatter stage: the same scatter-add of equal messages. -/
theorem aggregated_eq : aggregated (F := Ideal) x row col w = val_main_v22 (F := Ideal) x row col w := by
  unfold aggregated
  rw [rows_row, rows_col, weights, message_eq]
  rfl

/-- `0 − x` is the reference's negation, on every extended real. -/
theorem selfTerm_eq : Nodes.selfTerm (F := Ideal) x = val_main_v0 (F := Ideal) x := by
  funext i
  exact Ideal.subf_zero_eq_hostNegf (x i)

/-- On one extended real the vector unit's `tanh` and the host's are the same function. -/
theorem tanh_one_value (y : Ideal .f32) :
    FloatOps.tanh (F := Ideal) y = FloatOps.hostUnary (F := Ideal) .tanh y := rfl

/-- Entry by entry, hence on a whole array, whatever the array holds. -/
theorem interaction_eq (a : FVec Ideal S100000x16 .f32) : Nodes.interaction (F := Ideal) a = Host.tanh a :=
  funext fun i => tanh_one_value (a i)

/-- The interaction term is the reference's: `tanh` of equal sums. -/
theorem interaction_aggregated_eq :
    Nodes.interaction (F := Ideal) (aggregated (F := Ideal) x row col w) = val_main_v23 (F := Ideal) x row col w :=
  (interaction_eq (aggregated (F := Ideal) x row col w)).trans (congrArg Host.tanh (aggregated_eq x row col w))

/-- The new state is the reference's last stage. -/
theorem update_eq :
    Nodes.update (F := Ideal) x (aggregated (F := Ideal) x row col w) = val_main_v24 (F := Ideal) x row col w := by
  funext i
  rw [val_main_v24_apply]
  unfold Nodes.update
  rw [selfTerm_eq, interaction_aggregated_eq]

end Cert.KernelIdeal.AgainstReference

end
-- ==== Proof.lean ====
/-
  A message-passing step on a graph, kernel against reference, at the extended reals.

  Inputs: node states x : [100000, 16], edge endpoints row, col : [3200000] and edge weights w : [3200000]. Both
  programs compute, per edge e and lane d, the message sin (x[row e, d] − x[col e, d]) · w[e]; add every edge's message
  into the row of its destination node col e; and return the new state −x + tanh (sums), the state itself, −x, the
  sums, and tanh (sums). The reference does all of it with host operations. The kernel keeps the gathers and the
  scatter-add on the host and evaluates the two elementwise chains in two kernel regions, block by block: the
  messages over 800 blocks of 4000 edges, the node terms over 50 blocks of 2000 nodes.

  The proof follows the kernel's program from the launch memory (Proof/KernelRun.lean), reads what each region
  leaves in its output arrays as one function of the arrays it was entered with because the blocks tile the arrays
  (Proof/MessageRegion.lean, Proof/NodeRegion.lean), composes these with the host operations between them
  (Proof/KernelValues.lean), and shows the resulting functions of the four arguments equal to the reference's stages
  (Proof/AgainstReference.lean): the host operations are the same terms, the vector unit's sin and tanh are the
  host's on the extended reals, a weight repeated along the lanes is the broadcast column's entry, and the kernel's
  0 − x is −x on every extended real. No law used fails at an infinity, so the precondition is never opened.
  The idealization rewrote no operation of the kernel, so there is nothing to preserve.
-/
import proofs.«182047_j33243046871050_2_alg».proof.Defs
import proofs.«182047_j33243046871050_2_alg».proof.Proof.Gen.Kernel
import proofs.«182047_j33243046871050_2_alg».proof.Proof.Gen.Kernel.Skeleton
import proofs.«182047_j33243046871050_2_alg».proof.Proof.Gen.Kernel.Launch
import proofs.«182047_j33243046871050_2_alg».proof.Proof.Gen.Kernel.Points
import proofs.«182047_j33243046871050_2_alg».proof.Proof.Gen.Kernel.Frame
import proofs.«182047_j33243046871050_2_alg».proof.Proof.Gen.KernelIdeal
import proofs.«182047_j33243046871050_2_alg».proof.Proof.Gen.KernelIdeal.Skeleton
import proofs.«182047_j33243046871050_2_alg».proof.Proof.Gen.KernelIdeal.Launch
import proofs.«182047_j33243046871050_2_alg».proof.Proof.Gen.KernelIdeal.Points
import proofs.«182047_j33243046871050_2_alg».proof.Proof.Gen.KernelIdeal.Frame
import proofs.«182047_j33243046871050_2_alg».proof.Proof.Gen.ReferenceIdeal
import proofs.«182047_j33243046871050_2_alg».proof.Proof.Gen.Pre_finite_inputs
import proofs.«182047_j33243046871050_2_alg».proof.Proof.Gen.ReferenceIdeal.Run
import proofs.«182047_j33243046871050_2_alg».proof.Proof.Gen.ReferenceIdeal.Read
import proofs.«182047_j33243046871050_2_alg».proof.Proof.KernelValues
import proofs.«182047_j33243046871050_2_alg».proof.Proof.AgainstReference
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference is a line of host operations: its run with the results dropped. -/
theorem frame_reference_ideal : Cert.frame_ReferenceIdeal := fun m ρ _ =>
  (θ_run Cert.ReferenceIdeal.defs _ _).mono (fun _ h c => (h c).2.2.2.2.2) (Cert.ReferenceIdeal.Value.run (F := Ideal) m ρ)

/-- The idealization rewrote nothing. -/
theorem preserves : Cert.preserves_Kernel_KernelIdeal := trivial

/-- From memories that agree on the four arguments the kernel ends with its five results at its functions of the
    arguments (`Arrays.run`) and the reference with its five at its stages of the same arguments (its generated run);
    the functions are the stages (`AgainstReference`). -/
theorem algebraic : Cert.algebraic_KernelIdeal_ReferenceIdeal := by
  intro m ρ m' ρ' _ hagree
  refine ⟨fun c => Cert.KernelIdeal.Nodes.update (m ((c.tc : Thread Cert.KernelIdeal.nD Cert.KernelIdeal.τ).loc Cert.KernelIdeal.main_arg0))
        (Cert.KernelIdeal.Arrays.aggregated (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))),
      fun c => m ((c.tc : Thread Cert.KernelIdeal.nD Cert.KernelIdeal.τ).loc Cert.KernelIdeal.main_arg0),
      fun c => Cert.KernelIdeal.Nodes.selfTerm (m ((c.tc : Thread Cert.KernelIdeal.nD Cert.KernelIdeal.τ).loc Cert.KernelIdeal.main_arg0)),
      fun c => Cert.KernelIdeal.Arrays.aggregated (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)),
      fun c => Cert.KernelIdeal.Nodes.interaction (Cert.KernelIdeal.Arrays.aggregated (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))),
      ?_, ?_⟩
  · exact (θ_run Cert.KernelIdeal.defs _ _).mono
      (fun r h c => ⟨(h c).1, (h c).2.2.2.2.1, (h c).2.1, (h c).2.2.1, (h c).2.2.2.1, (h c).2.2.2.2⟩)
      (Cert.KernelIdeal.Arrays.run (F := Ideal) m ρ)
  · refine (θ_run Cert.ReferenceIdeal.defs _ _).mono (fun r h c => ?_) (Cert.ReferenceIdeal.Value.run (F := Ideal) m' ρ')
    obtain ⟨h24, ha0, h0, h22, h23, hkept⟩ := h c
    obtain ⟨e0, e1, e2, e3⟩ := hagree c
    refine ⟨h24.trans ?_, ha0.trans e0, h0.trans ?_, h22.trans ?_, h23.trans ?_, hkept⟩
    · rw [e0, e1, e2, e3]
      exact (Cert.ReferenceIdeal.Read.val_main_v24_eq _ _ _ _).trans (Cert.KernelIdeal.AgainstReference.update_eq _ _ _ _).symm
    · rw [e0]
      exact (Cert.ReferenceIdeal.Read.val_main_v0_eq _).trans (Cert.KernelIdeal.AgainstReference.selfTerm_eq _).symm
    · rw [e0, e1, e2, e3]
      exact (Cert.ReferenceIdeal.Read.val_main_v22_eq _ _ _ _).trans (Cert.KernelIdeal.AgainstReference.aggregated_eq _ _ _ _).symm
    · rw [e0, e1, e2, e3]
      exact (Cert.ReferenceIdeal.Read.val_main_v23_eq _ _ _ _).trans (Cert.KernelIdeal.AgainstReference.interaction_aggregated_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
